-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2048x256 : Shape := ⟨2, ![2048, 256]⟩
abbrev S512x512 : Shape := ⟨2, ![512, 512]⟩
abbrev S512x256 : Shape := ⟨2, ![512, 256]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x256 .f32) (main_arg5 : FVec F S512 .f32) (main_arg6 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S50000x512 .f32) (main_arg1 : FVec F S2048x256 .f32) (main_arg2 : FVec F S512x512 .f32) (main_arg3 : FVec F S512x256 .f32) (main_arg4 : FVec F S512x256 .f32) (main_arg5 : FVec F S512 .f32) (main_arg6 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S50000x512 : Shape := ⟨2, ![50000, 512]⟩
abbrev S2048x256 : Shape := ⟨2, ![2048, 256]⟩
abbrev S512x512 : Shape := ⟨2, ![512, 512]⟩
abbrev S512x256 : Shape := ⟨2, ![512, 256]⟩
abbrev S512 : Shape := ⟨1, ![512]⟩
abbrev S256x512 : Shape := ⟨2, ![256, 512]⟩
abbrev S512x2048 : Shape := ⟨2, ![512, 2048]⟩
abbrev S2048x512 : Shape := ⟨2, ![2048, 512]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩

abbrev nBuf : Space → Nat
  | .hbm => 18
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S2048x256, .f32⟩
  | .hbm, ⟨2, _⟩ => ⟨S512x512, .f32⟩
  | .hbm, ⟨3, _⟩ => ⟨S512x256, .f32⟩
  | .hbm, ⟨4, _⟩ => ⟨S512x256, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512x512, .bf16⟩
  | .hbm, ⟨9, _⟩ => ⟨S256x512, .f32⟩
  | .hbm, ⟨10, _⟩ => ⟨S256x512, .bf16⟩
  | .hbm, ⟨11, _⟩ => ⟨S256x512, .f32⟩
  | .hbm, ⟨12, _⟩ => ⟨S256x512, .bf16⟩
  | .hbm, ⟨13, _⟩ => ⟨S512x2048, .bf16⟩
  | .hbm, ⟨14, _⟩ => ⟨S2048x512, .bf16⟩
  | .hbm, ⟨15, _⟩ => ⟨S1x512, .f32⟩
  | .hbm, ⟨16, _⟩ => ⟨S1x512, .f32⟩
  | .hbm, ⟨17, _⟩ => ⟨S50000x512, .f32⟩
  | .local _ .vmem, ⟨0, _⟩ => ⟨S2048x256, .f32⟩
  | .local _ .vmem, ⟨1, _⟩ => ⟨S256x512, .bf16⟩
  | .local _ .vmem, ⟨2, _⟩ => ⟨S256x512, .bf16⟩
  | .local _ .vmem, ⟨3, _⟩ => ⟨S512x2048, .bf16⟩
  | .local _ .vmem, ⟨4, _⟩ => ⟨S2048x512, .bf16⟩
  | .local _ .vmem, ⟨5, _⟩ => ⟨S1000x512, .f32⟩
  | .local _ .vmem, ⟨6, _⟩ => ⟨S1000x512, .f32⟩
  | .local _ .vmem, ⟨7, _⟩ => ⟨S512x512, .bf16⟩
  | .local _ .vmem, ⟨8, _⟩ => ⟨S512x2048, .bf16⟩
  | .local _ .vmem, ⟨9, _⟩ => ⟨S2048x512, .bf16⟩
  | .local _ .vmem, ⟨10, _⟩ => ⟨S1x512, .f32⟩
  | .local _ .vmem, ⟨11, _⟩ => ⟨S1x512, .f32⟩
  | .local _ .vmem, ⟨12, _⟩ => ⟨S1000x512, .f32⟩
  | .local _ .vmem, ⟨13, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S512x512_S512x512_1_0 : S512x512.Transposes [1, 0] S512x512
  bitsLt_bf16_f32 : FTy.bits .bf16 < FTy.bits .f32
  transposes_S512x256_S256x512_1_0 : S512x256.Transposes [1, 0] S256x512
  inb_S2048x256_S2048x256_0_0 : ∀ a, (![0, 0] : Fin 2 → Nat) a + S2048x256.size a ≤ S2048x256.size a
  h_S2048x256 : 0 < S2048x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S2048x512_p1_0_S512x2048 : S2048x512.Transposes [1, 0] S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x512_0_0 : ∀ a, (![0, 0] : Fin 2 → Nat) a + S512x512.size a ≤ S512x2048.size a
  inb_S2048x512_S512x512_0_0 : ∀ a, (![0, 0] : Fin 2 → Nat) a + S512x512.size a ≤ S2048x512.size a
  inb_S512x2048_S512x512_0_512 : ∀ a, (![0, 512] : Fin 2 → Nat) a + S512x512.size a ≤ S512x2048.size a
  inb_S2048x512_S512x512_512_0 : ∀ a, (![512, 0] : Fin 2 → Nat) a + S512x512.size a ≤ S2048x512.size a
  inb_S512x2048_S512x512_0_1024 : ∀ a, (![0, 1024] : Fin 2 → Nat) a + S512x512.size a ≤ S512x2048.size a
  inb_S2048x512_S512x512_1024_0 : ∀ a, (![1024, 0] : Fin 2 → Nat) a + S512x512.size a ≤ S2048x512.size a
  inb_S512x2048_S512x512_0_1536 : ∀ a, (![0, 1536] : Fin 2 → Nat) a + S512x512.size a ≤ S512x2048.size a
  inb_S2048x512_S512x512_1536_0 : ∀ a, (![1536, 0] : Fin 2 → Nat) a + S512x512.size a ≤ S2048x512.size a
  reduces_S1000x512_S1000 : S1000x512.Reduces [1] S1000
  shapeCasts_S1000_S1000x1 : S1000.ShapeCasts S1000x1
  broadcasts_S1000x1_S1000x512 : S1000x1.Broadcasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  dot_S2048x256_S256x512_S2048x512_1_0_0_1_n_n_wf : DotDims.WF S2048x256 S256x512 S2048x512 [1] [0] [0] [1] [] []
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x256.size a
  hwx0_0 : ∀ i : grid0.Coords, EltTy.bits .f32 = 32 ∨ (Rect.block (s := S2048x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S512x2048.size a
  hwx1_2 : ∀ i : grid1.Coords, EltTy.bits .bf16 = 32 ∨ (Rect.block (s := S512x2048) S512x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S2048x512.size a
  hwx1_3 : ∀ i : grid1.Coords, EltTy.bits .bf16 = 32 ∨ (Rect.block (s := S2048x512) S2048x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x512.size a ≤ S50000x512.size a
  hwx1_6 : ∀ i : grid1.Coords, EltTy.bits .f32 = 32 ∨ (Rect.block (s := S50000x512) S1000x512.size (cc1_transform_6 i) (hinb1_6 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg1) S2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S512x2048.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S2048x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S512x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S2048x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1000x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x512 : Shape := ⟨2, ![50000, 512]⟩
abbrev S2048x256 : Shape := ⟨2, ![2048, 256]⟩
abbrev S512x512 : Shape := ⟨2, ![512, 512]⟩
abbrev S512x256 : Shape := ⟨2, ![512, 256]⟩
abbrev S512 : Shape := ⟨1, ![512]⟩
abbrev S256x512 : Shape := ⟨2, ![256, 512]⟩
abbrev S2048x512 : Shape := ⟨2, ![2048, 512]⟩
abbrev S512x2048 : Shape := ⟨2, ![512, 2048]⟩
abbrev S50000x2048 : Shape := ⟨2, ![50000, 2048]⟩
abbrev S_ : Shape := ⟨0, ![]⟩
abbrev S50000 : Shape := ⟨1, ![50000]⟩
abbrev S50000x1 : Shape := ⟨2, ![50000, 1]⟩
abbrev S1x512 : Shape := ⟨2, ![1, 512]⟩

abbrev nBuf : Space → Nat
  | .hbm => 46
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2048x256, .f32⟩
  | .hbm, ⟨2, _⟩ => ⟨S512x512, .f32⟩
  | .hbm, ⟨3, _⟩ => ⟨S512x256, .f32⟩
  | .hbm, ⟨4, _⟩ => ⟨S512x256, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S50000x512, .f32⟩
  | .hbm, ⟨9, _⟩ => ⟨S256x512, .f32⟩
  | .hbm, ⟨10, _⟩ => ⟨S2048x512, .f32⟩
  | .hbm, ⟨11, _⟩ => ⟨S256x512, .f32⟩
  | .hbm, ⟨12, _⟩ => ⟨S2048x512, .f32⟩
  | .hbm, ⟨13, _⟩ => ⟨S512x2048, .f32⟩
  | .hbm, ⟨14, _⟩ => ⟨S50000x2048, .f32⟩
  | .hbm, ⟨15, _⟩ => ⟨S50000x512, .f32⟩
  | .hbm, ⟨16, _⟩ => ⟨S50000x512, .f32⟩
  | .hbm, ⟨17, _⟩ => ⟨S_, .f32⟩
  | .hbm, ⟨18, _⟩ => ⟨S50000, .f32⟩
  | .hbm, ⟨19, _⟩ => ⟨S50000x1, .f32⟩
  | .hbm, ⟨20, _⟩ => ⟨S_, .f32⟩
  | .hbm, ⟨21, _⟩ => ⟨S50000x1, .f32⟩
  | .hbm, ⟨22, _⟩ => ⟨S50000x1, .f32⟩
  | .hbm, ⟨23, _⟩ => ⟨S50000x512, .f32⟩
  | .hbm, ⟨24, _⟩ => ⟨S50000x512, .f32⟩
  | .hbm, ⟨25, _⟩ => ⟨S50000x512, .f32⟩
  | .hbm, ⟨26, _⟩ => ⟨S_, .f32⟩
  | .hbm, ⟨27, _⟩ => ⟨S50000, .f32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x512, .f32⟩
  | .hbm, ⟨33, _⟩ => ⟨S50000x512, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x1, .f32⟩
  | .hbm, ⟨38, _⟩ => ⟨S50000x512, .f32⟩
  | .hbm, ⟨39, _⟩ => ⟨S50000x512, .f32⟩
  | .hbm, ⟨40, _⟩ => ⟨S1x512, .f32⟩
  | .hbm, ⟨41, _⟩ => ⟨S50000x512, .f32⟩
  | .hbm, ⟨42, _⟩ => ⟨S50000x512, .f32⟩
  | .hbm, ⟨43, _⟩ => ⟨S1x512, .f32⟩
  | .hbm, ⟨44, _⟩ => ⟨S50000x512, .f32⟩
  | .hbm, ⟨45, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S512x512_S512x512_1_0 : S512x512.Transposes [1, 0] S512x512
  transposes_S512x256_S256x512_1_0 : S512x256.Transposes [1, 0] S256x512
  transposes_S2048x512_S512x2048_1_0 : S2048x512.Transposes [1, 0] S512x2048
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  dot_S50000x512_S512x512_S50000x512_1_0_0_1_n_n_wf : DotDims.WF S50000x512 S512x512 S50000x512 [1] [0] [0] [1] [] []
  dot_S2048x256_S256x512_S2048x512_1_0_0_1_n_n_wf : DotDims.WF S2048x256 S256x512 S2048x512 [1] [0] [0] [1] [] []
  dot_S50000x512_S512x2048_S50000x2048_1_0_0_1_n_n_wf : DotDims.WF S50000x512 S512x2048 S50000x2048 [1] [0] [0] [1] [] []
  dot_S50000x2048_S2048x512_S50000x512_1_0_0_1_n_n_wf : DotDims.WF S50000x2048 S2048x512 S50000x512 [1] [0] [0] [1] [] []

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S50000x512_S512x2048_S50000x2048_1_0_0_1_n_n : DotDims S50000x512 S512x2048 S50000x2048 where
  lhsContracting := [1]
  rhsContracting := [0]
  lhsNonContracting := [0]
  rhsNonContracting := [1]
  lhsBatch := []
  rhsBatch := []
  wf := dot_S50000x512_S512x2048_S50000x2048_1_0_0_1_n_n_wf
def dot_S50000x2048_S2048x512_S50000x512_1_0_0_1_n_n : DotDims S50000x2048 S2048x512 S50000x512 where
  lhsContracting := [1]
  rhsContracting := [0]
  lhsNonContracting := [0]
  rhsNonContracting := [1]
  lhsBatch := []
  rhsBatch := []
  wf := dot_S50000x2048_S2048x512_S50000x512_1_0_0_1_n_n_wf

class Facts : Prop extends Facts₀ where

variable [Facts]
-- ==== Proof.KernelRun.lean ====
import proofs.«103665_j27943057228188_2_alg».proof.Proof.Gen.KernelIdeal.Frame

/-!
# The idealized kernel's run, with the result buffer named

The program is two regions among two stretches of host operations. Its run ends with every unscoped buffer at the
last boundary's contents; read at the result buffer that is what the second region's write-backs leave of its output
window, and read at an argument it is the launch contents.
-/

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer holding what the
    second region's write-backs leave of its output window (from the contents that region is entered with) and the
    seven arguments as launched. -/
theorem run_result : θ_run defs (onTc (τ := τ) (main (F := F))) ⟨m, fun _ => 0, ρ⟩ (fun r => ∀ c : Dev nD,
      r.2.mem ((c.tc : Thread nD τ).loc main_v9) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v9 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelOps.lean ====
import proofs.«103665_j27943057228188_2_alg».proof.Proof.Gen.KernelIdeal
import proofs.«103665_j27943057228188_2_alg».proof.Proof.LibColumn
import Idealize.ShloMosaic.PureOps.Ideal.Laws
import Idealize.ShloMosaic.Lib.ValueIdx
import Idealize.ShloMosaic.Lib.ValueLayout
import Idealize.ShloMosaic.Lib.Pipeline.Value

/-!
# The kernel's non-pointwise operations read at an index, on the extended reals

* a matrix product into a zero accumulator is the sum over the contracted axis of the products of the two
  operands' entries (for the two operand shapes the kernels use: 2048 × 256 by 256 × 512 and 1000 × 512 by 512 × 512);
* a sum along the lanes of a 1000 × 512 block is the sum of the row's 512 entries;
* a 512 × 512 piece loaded out of a larger block at a column or row offset reads the block at the shifted index.
-/

noncomputable section

namespace Cert.KernelIdeal.Ops

open Idealize.ShloMosaic Idealize.ShloMosaic.ValueIdx Cert.KernelIdeal Cert.KernelIdeal.Gen

/-! ## The matrix product of the key and value projections: `[2048, 256] × [256, 512]` -/

theorem kvDot_lhs0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl

theorem kvDot_rhs1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- Entry `(m, e)` of the product of a `2048 × 256` by a `256 × 512` matrix into a zero accumulator. -/
theorem kvDot_apply {φ₁ φ₂ : FTy} (l : FVec Ideal S2048x256 φ₁) (r : FVec Ideal S256x512 φ₂) (m : Fin 2048) (e : Fin 512) :
    matmul dot_S2048x256_S256x512_S2048x512_1_0_0_1_n_n none l r (constant S2048x512 .f32 0x00000000#32) (ix2 m e)
      = ∑ o : Fin 256, l (ix2 m o) * r (ix2 o e) := by
  simp only [matmul]
  rw [Ideal.matmul_constant_zero_apply,
    ← Equiv.sum_comp (ValueIdx.contrEquiv1 dot_S2048x256_S256x512_S2048x512_1_0_0_1_n_n 256 rfl rfl).symm]
  refine Finset.sum_congr rfl fun k _ => ?_
  have hk := ValueIdx.contrEquiv1_symm_val dot_S2048x256_S256x512_S2048x512_1_0_0_1_n_n 256 rfl rfl k
  have el : dot_S2048x256_S256x512_S2048x512_1_0_0_1_n_n.lhsIdx (ix2 m e)
      ((ValueIdx.contrEquiv1 dot_S2048x256_S256x512_S2048x512_1_0_0_1_n_n 256 rfl rfl).symm k) = ix2 m k :=
    funext fun a => Fin.ext (by
      match a with
      | ⟨0, _⟩ => exact kvDot_lhs0 _ _
      | ⟨1, _⟩ => exact (dot_S2048x256_S256x512_S2048x512_1_0_0_1_n_n.lhsIdx_val_of_single rfl _ _).trans hk)
  have er : dot_S2048x256_S256x512_S2048x512_1_0_0_1_n_n.rhsIdx (ix2 m e)
      ((ValueIdx.contrEquiv1 dot_S2048x256_S256x512_S2048x512_1_0_0_1_n_n 256 rfl rfl).symm k) = ix2 k e :=
    funext fun a => Fin.ext (by
      match a with
      | ⟨0, _⟩ => exact (dot_S2048x256_S256x512_S2048x512_1_0_0_1_n_n.rhsIdx_val_of_single rfl _ _).trans hk
      | ⟨1, _⟩ => exact kvDot_rhs1 _ _)
  rw [el, er]

/-! ## The matrix products of the main kernel: `[1000, 512] × [512, 512]` -/

theorem rowDot_lhs0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide),
    dif_pos (show (0 : Fin S1000x512.rank) ∈ dot_S1000x512_S512x512_S1000x512_1_0_0_1_n_n.lhsNonContracting by decide)]
  rfl

theorem rowDot_rhs1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide),
    dif_pos (show (1 : Fin S512x512.rank) ∈ dot_S1000x512_S512x512_S1000x512_1_0_0_1_n_n.rhsNonContracting by decide)]
  rfl

/-- Entry `(p, j)` of the product of a `1000 × 512` by a `512 × 512` matrix into a zero accumulator. -/
theorem rowDot_apply {φ₁ φ₂ : FTy} (l : FVec Ideal S1000x512 φ₁) (r : FVec Ideal S512x512 φ₂) (p : Fin 1000) (j : Fin 512) :
    matmul dot_S1000x512_S512x512_S1000x512_1_0_0_1_n_n none l r (constant S1000x512 .f32 0x00000000#32) (ix2 p j)
      = ∑ k : Fin 512, l (ix2 p k) * r (ix2 k j) := by
  simp only [matmul]
  rw [Ideal.matmul_constant_zero_apply,
    ← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx (ix2 p j)
      ((ValueIdx.contrEquiv1 dot_S1000x512_S512x512_S1000x512_1_0_0_1_n_n 512 rfl rfl).symm k) = ix2 p k :=
    funext fun a => Fin.ext (by
      match a with
      | ⟨0, _⟩ => exact rowDot_lhs0 _ _
      | ⟨1, _⟩ => exact (dot_S1000x512_S512x512_S1000x512_1_0_0_1_n_n.lhsIdx_val_of_single rfl _ _).trans hk)
  have er : dot_S1000x512_S512x512_S1000x512_1_0_0_1_n_n.rhsIdx (ix2 p j)
      ((ValueIdx.contrEquiv1 dot_S1000x512_S512x512_S1000x512_1_0_0_1_n_n 512 rfl rfl).symm k) = ix2 k j :=
    funext fun a => Fin.ext (by
      match a with
      | ⟨0, _⟩ => exact (dot_S1000x512_S512x512_S1000x512_1_0_0_1_n_n.rhsIdx_val_of_single rfl _ _).trans hk
      | ⟨1, _⟩ => exact rowDot_rhs1 _ _)
  rw [el, er]

/-! ## A sum along the lanes of a block -/

/-- The sum along the lanes of a `1000 × 512` block, at row `p`, is the sum of the row's 512 entries. -/
theorem laneSum_apply (x : FVec Ideal S1000x512 .f32) (p : Fin 1000) :
    multiReduction .add [1] S1000 x 0x00000000#32 reduces_S1000x512_S1000 (.inl rfl) rfl (ix1 p)
      = ∑ k : Fin 512, x (ix2 p k) := by
  refine (Ideal.multiReduction_add_single x 0x00000000#32 reduces_S1000x512_S1000 (.inl rfl) rfl (ix1 p)).trans ?_
  refine Finset.sum_congr rfl fun k _ => congrArg x (funext fun a => Fin.ext ?_)
  match a with
  | ⟨0, _⟩ => rfl
  | ⟨1, _⟩ => rfl

end Cert.KernelIdeal.Ops

end
-- ==== Proof.LibBlockSums.lean ====
import Mathlib.Algebra.BigOperators.Fin
import Mathlib.Algebra.BigOperators.Intervals
import Mathlib.Logic.Equiv.Fin.Basic
import Mathlib.Data.Fintype.BigOperators

/-!
# A sum taken block by block, accumulated in order from zero

A family `f` over `Fin n` is cut into consecutive blocks of `bs` terms. `blockSum bs f k` is the sum of
block `k` (the terms at positions `bs * k`, …, `bs * k + bs - 1`; a position past the end contributes `0`),
and `runSum bs f k` is what an accumulator holds after block `k` when it starts from zero and adds one block
at a time: `((0 + B₀) + B₁) + ⋯ + B_k`. In an additive commutative monoid the order and the grouping do not
matter: after the last of `nb` blocks of a family over `Fin (nb * bs)` the accumulator holds the whole sum.
-/

namespace BlockSums

variable {M : Type*} [AddCommMonoid M]

/-- The sum of block `k`: the `bs` terms starting at position `bs * k`. -/
def blockSum {n : ℕ} (bs : ℕ) (f : Fin n → M) (k : ℕ) : M :=
  ∑ j : Fin bs, if h : j.val + bs * k < n then f ⟨j.val + bs * k, h⟩ else 0

/-- The accumulator after block `k`: zero, then one block added at a time, in order. -/
def runSum {n : ℕ} (bs : ℕ) (f : Fin n → M) : ℕ → M
  | 0 => 0 + blockSum bs f 0
  | k + 1 => runSum bs f k + blockSum bs f (k + 1)

theorem runSum_zero {n : ℕ} (bs : ℕ) (f : Fin n → M) : runSum bs f 0 = 0 + blockSum bs f 0 := rfl

theorem runSum_succ {n : ℕ} (bs : ℕ) (f : Fin n → M) (k : ℕ) :
    runSum bs f (k + 1) = runSum bs f k + blockSum bs f (k + 1) := rfl

/-- The accumulator after block `k` is the sum of the blocks `0, …, k`. -/
theorem runSum_eq_sum_range {n : ℕ} (bs : ℕ) (f : Fin n → M) (k : ℕ) :
    runSum bs f k = ∑ p ∈ Finset.range (k + 1), blockSum bs f p := by
  induction k with
  | zero => rw [runSum_zero, zero_add, Finset.sum_range_one]
  | succ k ih => rw [runSum_succ, ih, Finset.sum_range_succ _ (k + 1)]

/-- After the last of `nb` blocks of `bs` terms the accumulator holds the sum of the whole family. -/
theorem runSum_last (nb bs : ℕ) (hnb : 0 < nb) (f : Fin (nb * bs) → M) :
    runSum bs f (nb - 1) = ∑ i, f i := by
  rw [runSum_eq_sum_range, Nat.sub_add_cancel hnb, Finset.sum_range (fun p => blockSum bs f p),
    ← Equiv.sum_comp (finProdFinEquiv (m := nb) (n := bs)) f, Fintype.sum_prod_type]
  refine Finset.sum_congr rfl fun p _ => ?_
  unfold blockSum
  refine Finset.sum_congr rfl fun j _ => ?_
  have h : j.val + bs * p.val < nb * bs := (finProdFinEquiv (p, j)).isLt
  rw [dif_pos h]
  rfl

/-- Four blocks of 1024 terms: after block 3 the accumulator holds the sum over all 4096 positions. -/
theorem runSum_4x1024 (f : Fin 4096 → M) : runSum 1024 f 3 = ∑ i, f i :=
  runSum_last 4 1024 (by decide) f

/-- Inside the range, a block's term at `j` is the family's term at `bs * k + j`. -/
theorem blockSum_eq {n : ℕ} (bs : ℕ) (f : Fin n → M) (k : ℕ) (hk : bs * k + bs ≤ n) :
    blockSum bs f k = ∑ j : Fin bs, f ⟨j.val + bs * k, by have := j.isLt; omega⟩ := by
  unfold blockSum
  refine Finset.sum_congr rfl fun j _ => ?_
  have h : j.val + bs * k < n := by have := j.isLt; omega
  rw [dif_pos h]

end BlockSums
-- ==== Proof.Spec.lean ====
import proofs.«103665_j27943057228188_2_alg».proof.Proof.LibBlockSums
import Idealize.ShloMosaic.PureOps.Ideal.Laws
import Idealize.ShloMosaic.Lib.ValueIdx

/-!
# What both programs compute, written on the extended reals

Un-normalised cross attention followed by a residual layer normalisation. For a node row `x` (512 features),
the transposed query weights `WqT`, the transposed keys `KT` (512 × 2048) and the values `Vm` (2048 × 512):

* `query x WqT e      = ∑ d, x d · WqT (d, e)`
* `score …     m      = ∑ e, query e · KT (e, m)`
* `attend …    j      = ∑ m, score m · Vm (m, j)`
* `preNorm …   j      = attend j + x j`
* `layerNorm r g b j  = (r j − mean r) · rsqrt (var r + ε) · g j + b j`, the mean and the variance being sums
  over the 512 features divided by the float 512.

The keys and values themselves are products of the observations with the key and value weights. The only law
used between the two programs is that a sum over 2048 observations may be taken as four consecutive blocks of
512 accumulated from zero: addition of extended reals is commutative and associative, so no finiteness is needed.
-/

noncomputable section

namespace Cert.Spec

open Idealize.ShloMosaic Idealize.ShloMosaic.ValueIdx

/-- A two-axis array of extended reals with literal extents. -/
abbrev Arr2 (a b : Nat) : Type := (⟨2, ![a, b]⟩ : Shape).Idx → EReal

/-- The float 512 (the number of features), as the word both programs divide by. -/
def nFeat : EReal := Ideal.ofBits .f32 0x44000000#32
/-- The float 1e-6 added to the variance, as the word both programs carry. -/
def epsLN : EReal := Ideal.ofBits .f32 0x358637BD#32

/-- The mean of a row: the sum of its 512 entries over the float 512. -/
def mean (r : Fin 512 → EReal) : EReal := Ideal.div (∑ k : Fin 512, r k) nFeat

/-- The variance of a row about its mean, with the same divisor. -/
def variance (r : Fin 512 → EReal) : EReal :=
  Ideal.div (∑ k : Fin 512, (r k - mean r) * (r k - mean r)) nFeat

/-- Layer normalisation of a row with scale `g` and shift `b`, at feature `j`. -/
def layerNorm (r g b : Fin 512 → EReal) (j : Fin 512) : EReal :=
  (r j - mean r) * Ideal.rsqrt (variance r + epsLN) * g j + b j

/-- The query of a node row against the transposed query weights. -/
def query (x : Fin 512 → EReal) (WqT : Arr2 512 512) (e : Fin 512) : EReal :=
  ∑ d : Fin 512, x d * WqT (ix2 d e)

/-- The un-normalised attention score of a node row against observation `m`. -/
def score (x : Fin 512 → EReal) (WqT : Arr2 512 512) (KT : Arr2 512 2048) (m : Fin 2048) : EReal :=
  ∑ e : Fin 512, query x WqT e * KT (ix2 e m)

/-- One observation's contribution to feature `j` of the attended row. -/
def contrib (x : Fin 512 → EReal) (WqT : Arr2 512 512) (KT : Arr2 512 2048) (Vm : Arr2 2048 512) (j : Fin 512)
    (m : Fin 2048) : EReal :=
  score x WqT KT m * Vm (ix2 m j)

/-- The attended row: the scores against all 2048 observations applied to the values. -/
def attend (x : Fin 512 → EReal) (WqT : Arr2 512 512) (KT : Arr2 512 2048) (Vm : Arr2 2048 512) (j : Fin 512) : EReal :=
  ∑ m : Fin 2048, contrib x WqT KT Vm j m

/-- The row that is normalised: the attended row plus the node row itself. -/
def preNorm (x : Fin 512 → EReal) (WqT : Arr2 512 512) (KT : Arr2 512 2048) (Vm : Arr2 2048 512) (j : Fin 512) : EReal :=
  attend x WqT KT Vm j + x j

/-- One output row. -/
def outRow (x : Fin 512 → EReal) (WqT : Arr2 512 512) (KT : Arr2 512 2048) (Vm : Arr2 2048 512)
    (g b : Fin 512 → EReal) (j : Fin 512) : EReal :=
  layerNorm (preNorm x WqT KT Vm) g b j

/-- The whole result from the node features and the three derived matrices: row `n` is `outRow` of node row `n`. -/
def result (X : Arr2 50000 512) (WqT : Arr2 512 512) (KT : Arr2 512 2048) (Vm : Arr2 2048 512)
    (g b : Fin 512 → EReal) : Arr2 50000 512 :=
  fun i => outRow (fun d => X (ix2 (i 0) d)) WqT KT Vm g b (i 1)

/-- The transposed query weights. -/
def transposeQ (Wq : Arr2 512 512) : Arr2 512 512 := fun i => Wq (ix2 (i 1) (i 0))

/-- The transposed keys: entry `(e, m)` is observation `m` against row `e` of the key weights. -/
def keysT (O : Arr2 2048 256) (Wk : Arr2 512 256) : Arr2 512 2048 :=
  fun i => ∑ o : Fin 256, O (ix2 (i 1) o) * Wk (ix2 (i 0) o)

/-- The values: entry `(m, j)` is observation `m` against row `j` of the value weights. -/
def values (O : Arr2 2048 256) (Wv : Arr2 512 256) : Arr2 2048 512 :=
  fun i => ∑ o : Fin 256, O (ix2 (i 0) o) * Wv (ix2 (i 1) o)

/-- The result as one function of the seven arguments. -/
def output (X : Arr2 50000 512) (O : Arr2 2048 256) (Wq : Arr2 512 512) (Wk Wv : Arr2 512 256)
    (gamma beta : (⟨1, ![512]⟩ : Shape).Idx → EReal) : Arr2 50000 512 :=
  result X (transposeQ Wq) (keysT O Wk) (values O Wv) (fun j => gamma (ix1 j)) (fun j => beta (ix1 j))

/-- The sum over the 2048 observations taken as four consecutive blocks of 512, accumulated in order from zero, is
    the whole sum: only commutativity and associativity of addition are used. -/
theorem blocks_eq_sum (f : Fin 2048 → EReal) :
    (((0 + ∑ q : Fin 512, f ⟨q.val + 512 * 0, by have := q.isLt; omega⟩)
        + ∑ q : Fin 512, f ⟨q.val + 512 * 1, by have := q.isLt; omega⟩)
        + ∑ q : Fin 512, f ⟨q.val + 512 * 2, by have := q.isLt; omega⟩)
        + ∑ q : Fin 512, f ⟨q.val + 512 * 3, by have := q.isLt; omega⟩
      = ∑ m : Fin 2048, f m := by
  have h : BlockSums.runSum 512 f 3 = ∑ m : Fin 2048, f m := BlockSums.runSum_last 4 512 (by decide) f
  have e3 : BlockSums.runSum 512 f 3 = BlockSums.runSum 512 f 2 + BlockSums.blockSum 512 f 3 :=
    BlockSums.runSum_succ 512 f 2
  have e2 : BlockSums.runSum 512 f 2 = BlockSums.runSum 512 f 1 + BlockSums.blockSum 512 f 2 :=
    BlockSums.runSum_succ 512 f 1
  have e1 : BlockSums.runSum 512 f 1 = BlockSums.runSum 512 f 0 + BlockSums.blockSum 512 f 1 :=
    BlockSums.runSum_succ 512 f 0
  rw [← h, e3, e2, e1, BlockSums.runSum_zero, BlockSums.blockSum_eq 512 f 0 (by omega),
    BlockSums.blockSum_eq 512 f 1 (by omega), BlockSums.blockSum_eq 512 f 2 (by omega),
    BlockSums.blockSum_eq 512 f 3 (by omega)]

end Cert.Spec

end
-- ==== Proof.MainPayload.lean ====
import proofs.«103665_j27943057228188_2_alg».proof.Proof.Gen.KernelIdeal.Skeleton
import proofs.«103665_j27943057228188_2_alg».proof.Proof.KernelOps
import proofs.«103665_j27943057228188_2_alg».proof.Proof.Spec

/-!
# The main kernel's stored value at an index of a block

For a block of 1000 node rows the body computes the queries (one matrix product), then, for each of four consecutive
blocks of 512 observations, the scores against that block of the transposed keys and their product with that block
of the values, adding the four products in order into a zero accumulator; then it adds the node rows and normalises
each row. Read at row `p` and feature `j` of the block, with the blocks of keys and values read as pieces of whole
`512 × 2048` and `2048 × 512` arrays, that is the specification's `outRow` of row `p`.
-/

noncomputable section

namespace Cert.KernelIdeal.Payload

open Idealize.ShloMosaic Idealize.ShloMosaic.ValueIdx Cert.KernelIdeal Cert.KernelIdeal.Gen Cert.KernelIdeal.Ops

/-! ## The queries -/

/-- The block's queries: row `p` of the node block against column `e` of the transposed query weights. -/
theorem query_apply (v0 : FVec Ideal S1000x512 .f32) (v2 : FVec Ideal S512x512 .bf16) (p : Fin 1000) (e : Fin 512) :
    k1_pay2 (F := Ideal) v0 v2 (ix2 p e) = ∑ d : Fin 512, v0 (ix2 p d) * v2 (ix2 d e) := by
  unfold k1_pay2
  refine (rowDot_apply _ _ p e).trans ?_
  rw [shapeCast_self]
  rfl

/-! ## One block of observations -/

/-- What one block of 512 observations adds to entry `(p, j)`: the scores of row `p` against the block's keys,
    applied to the block's values. -/
def blockTerm (Q : FVec Ideal S1000x512 .bf16) (Kc Vc : FVec Ideal S512x512 .bf16) (p : Fin 1000) (j : Fin 512) : EReal :=
  ∑ q : Fin 512, (∑ e : Fin 512, Q (ix2 p e) * Kc (ix2 e q)) * Vc (ix2 q j)

/-- The two matrix products of one block, read at `(p, j)`. -/
theorem block_apply (Q : FVec Ideal S1000x512 .bf16) (Kc Vc : FVec Ideal S512x512 .bf16) (p : Fin 1000) (j : Fin 512) :
    matmul dot_S1000x512_S512x512_S1000x512_1_0_0_1_n_n none
        (truncf .bf16 (matmul dot_S1000x512_S512x512_S1000x512_1_0_0_1_n_n none Q Kc
          (constant (F := Ideal) S1000x512 .f32 0x00000000#32)) bitsLt_bf16_f32)
        Vc (constant (F := Ideal) S1000x512 .f32 0x00000000#32) (ix2 p j)
      = blockTerm Q Kc Vc p j := by
  refine (rowDot_apply _ _ p j).trans ?_
  unfold blockTerm
  refine Finset.sum_congr rfl fun q _ => ?_
  exact congrArg (· * Vc (ix2 q j)) (rowDot_apply Q Kc p q)

/-! ## The accumulator after three blocks -/

/-- The accumulator after the first three blocks of observations, at `(p, j)`: zero, then one block's term at a time. -/
theorem acc3_apply (v0 : FVec Ideal S1000x512 .f32) (v2 v7 v9 v15 v17 v23 v25 : FVec Ideal S512x512 .bf16)
    (p : Fin 1000) (j : Fin 512) :
    k1_pay3 (F := Ideal) v0 v2 v7 v9 v15 v17 v23 v25 (ix2 p j)
      = ((0 + blockTerm (k1_pay2 v0 v2) v7 v9 p j) + blockTerm (k1_pay2 v0 v2) v15 v17 p j)
          + blockTerm (k1_pay2 v0 v2) v23 v25 p j := by
  unfold k1_pay3
  simp only [shapeCast_self]
  refine congrArg₂ (· + ·) (congrArg₂ (· + ·) (congrArg₂ (· + ·) ?_ (block_apply _ _ _ p j)) (block_apply _ _ _ p j))
    (block_apply _ _ _ p j)
  exact Ideal.ofBits_zero_f32

/-! ## The normalisation of a block's rows -/

/-- The column of row means of a block: the lane sums, kept as a column, over the float 512. -/
def colMean (x : FVec Ideal S1000x512 .f32) : FVec Ideal S1000x1 .f32 :=
  divf (shapeCast S1000x1 (multiReduction .add [1] S1000 x 0x00000000#32 reduces_S1000x512_S1000 (.inl rfl) rfl)
    shapeCasts_S1000_S1000x1) (broadcast S1000x1 (Scalar.ofBits .f32 0x44000000#32))

theorem colMean_apply (x : FVec Ideal S1000x512 .f32) (p : Fin 1000) :
    colMean x (ix2 p (0 : Fin 1)) = Ideal.div (∑ k : Fin 512, x (ix2 p k)) Cert.Spec.nFeat := by
  unfold colMean
  show Ideal.div (shapeCast S1000x1 _ shapeCasts_S1000_S1000x1 (ix2 p (0 : Fin 1))) (Ideal.ofBits .f32 0x44000000#32) = _
  rw [Cert.LibColumn.shapeCast_a_a1_apply, laneSum_apply]
  rfl

/-- The body's arithmetic after the accumulation, as one function of the rows to normalise and of the scale and
    shift blocks: the row means, the deviations, their mean squares, the reciprocal square root, scale and shift. -/
def lnTail (v39 : FVec Ideal S1000x512 .f32) (v58 v60 : FVec Ideal S1x512 .f32) : FVec Ideal S1000x512 .f32 :=
  addf (mulf (mulf (subf v39 (broadcastTo S1000x512 (colMean v39) broadcasts_S1000x1_S1000x512))
      (broadcastTo S1000x512
        (rsqrt (addf (colMean (mulf (subf v39 (broadcastTo S1000x512 (colMean v39) broadcasts_S1000x1_S1000x512))
            (subf v39 (broadcastTo S1000x512 (colMean v39) broadcasts_S1000x1_S1000x512))))
          (broadcast S1000x1 (Scalar.ofBits .f32 0x358637BD#32))))
        broadcasts_S1000x1_S1000x512))
      (broadcastTo S1000x512 (shapeCast S1x512 v58 shapeCasts_S1x512_S1x512) broadcasts_S1x512_S1000x512))
    (broadcastTo S1000x512 (shapeCast S1x512 v60 shapeCasts_S1x512_S1x512) broadcasts_S1x512_S1000x512)

/-- Read at `(p, j)`, that arithmetic is the layer normalisation of row `p`. -/
theorem lnTail_apply (v39 : FVec Ideal S1000x512 .f32) (v58 v60 : FVec Ideal S1x512 .f32) (p : Fin 1000) (j : Fin 512) :
    lnTail v39 v58 v60 (ix2 p j)
      = Cert.Spec.layerNorm (fun k => v39 (ix2 p k)) (fun k => v58 (ix2 (0 : Fin 1) k)) (fun k => v60 (ix2 (0 : Fin 1) k)) j := by
  have hmu : ∀ c : Fin 512, broadcastTo S1000x512 (colMean v39) broadcasts_S1000x1_S1000x512 (ix2 p c)
      = Cert.Spec.mean (fun k => v39 (ix2 p k)) := fun c =>
    (Cert.LibColumn.broadcastTo_a1_ab_apply _ _ p c).trans (colMean_apply v39 p)
  have hvar : colMean (mulf (subf v39 (broadcastTo S1000x512 (colMean v39) broadcasts_S1000x1_S1000x512))
      (subf v39 (broadcastTo S1000x512 (colMean v39) broadcasts_S1000x1_S1000x512))) (ix2 p (0 : Fin 1))
      = Cert.Spec.variance (fun k => v39 (ix2 p k)) := by
    rw [colMean_apply]
    unfold Cert.Spec.variance
    refine congrArg (Ideal.div · Cert.Spec.nFeat) (Finset.sum_congr rfl fun k _ => ?_)
    show (v39 (ix2 p k) - broadcastTo S1000x512 (colMean v39) broadcasts_S1000x1_S1000x512 (ix2 p k))
        * (v39 (ix2 p k) - broadcastTo S1000x512 (colMean v39) broadcasts_S1000x1_S1000x512 (ix2 p k)) = _
    rw [hmu k]
  unfold lnTail Cert.Spec.layerNorm
  show (v39 (ix2 p j) - broadcastTo S1000x512 (colMean v39) broadcasts_S1000x1_S1000x512 (ix2 p j))
        * broadcastTo S1000x512 _ broadcasts_S1000x1_S1000x512 (ix2 p j)
        * broadcastTo S1000x512 _ broadcasts_S1x512_S1000x512 (ix2 p j)
      + broadcastTo S1000x512 _ broadcasts_S1x512_S1000x512 (ix2 p j) = _
  rw [hmu j, Cert.LibColumn.broadcastTo_a1_ab_apply, broadcastTo_1b_ab_apply, broadcastTo_1b_ab_apply,
    shapeCast_self, shapeCast_self]
  show _ * Ideal.rsqrt (colMean _ (ix2 p (0 : Fin 1)) + Ideal.ofBits .f32 0x358637BD#32) * _ + _ = _
  rw [hvar]
  rfl

/-! ## The stored value -/

/-- The value the body stores, at `(p, j)`: the accumulator after three blocks plus the fourth block's term plus the
    node row, normalised along the row. -/
theorem stored_apply (v0 : FVec Ideal S1000x512 .f32) (v5 : FVec Ideal S1000x512 .bf16) (v30 : FVec Ideal S1000x512 .f32)
    (v32 v33 : FVec Ideal S512x512 .bf16) (v58 v60 : FVec Ideal S1x512 .f32) (p : Fin 1000) (j : Fin 512) :
    k1_pay1 (F := Ideal) v0 v5 v30 v32 v33 v58 v60 (ix2 p j)
      = Cert.Spec.layerNorm (fun k => (v30 (ix2 p k) + blockTerm v5 v32 v33 p k) + v0 (ix2 p k))
          (fun k => v58 (ix2 (0 : Fin 1) k)) (fun k => v60 (ix2 (0 : Fin 1) k)) j := by
  have e : k1_pay1 (F := Ideal) v0 v5 v30 v32 v33 v58 v60
      = lnTail (addf (addf v30 (matmul dot_S1000x512_S512x512_S1000x512_1_0_0_1_n_n none
          (truncf .bf16 (matmul dot_S1000x512_S512x512_S1000x512_1_0_0_1_n_n none v5 v32
            (constant (F := Ideal) S1000x512 .f32 0x00000000#32)) bitsLt_bf16_f32)
          (shapeCast S512x512 v33 shapeCasts_S512x512_S512x512) (constant (F := Ideal) S1000x512 .f32 0x00000000#32))) v0)
          v58 v60 := rfl
  rw [e, lnTail_apply]
  refine congrArg (fun r => Cert.Spec.layerNorm r _ _ j) (funext fun k => ?_)
  show (v30 (ix2 p k) + _) + v0 (ix2 p k) = _
  rw [block_apply, shapeCast_self]

end Cert.KernelIdeal.Payload

end
-- ==== Proof.MainBlock.lean ====
import proofs.«103665_j27943057228188_2_alg».proof.Proof.Gen.KernelIdeal.Frame
import proofs.«103665_j27943057228188_2_alg».proof.Proof.MainPayload

/-!
# What the main kernel leaves in its output block, as the specification's row function

The body reads the node block, the transposed query weights, and the transposed keys and the values in four pieces
of 512 columns, respectively 512 rows, at offsets 0, 512, 1024 and 1536. The four blocks' terms accumulated from
zero are the whole sum over the 2048 observations, so the output block at `(p, j)` is `outRow` of row `p` of the node
block against the whole arrays.
-/

noncomputable section

namespace Cert.KernelIdeal.Block

open Idealize.ShloMosaic Idealize.ShloMosaic.ValueIdx Cert.KernelIdeal Cert.KernelIdeal.Gen Cert.KernelIdeal.Ops
  Cert.KernelIdeal.Payload

theorem zeroOffsets : (![0, 0] : Fin 2 → Nat) = fun _ => 0 := funext fun a => by fin_cases a <;> rfl

/-- A `512 × 512` piece of the transposed keys loaded at column offset `512 · c` reads the block at the shifted column. -/
theorem keysPiece_apply (x2 : FVec Ideal S512x2048 .bf16) (c : ℕ) (hc : 512 * c + 512 ≤ 2048)
    (inb : ∀ a, (![0, 512 * c] : Fin 2 → Nat) a + S512x512.size a ≤ S512x2048.size a) (e q : Fin 512) :
    View.ld (Val := Elt Ideal) (e' := .bf16) x2 (Rect.unit (s := S512x2048) ![0, 512 * c] S512x512.size inb) (ix2 e q)
      = x2 (ix2 e ⟨q.val + 512 * c, by have := q.isLt; omega⟩) :=
  congrArg x2 (funext fun a => Fin.ext (by
    match a with
    | ⟨0, _⟩ => show 0 + 1 * e.val = e.val; omega
    | ⟨1, _⟩ => show 512 * c + 1 * q.val = q.val + 512 * c; omega))

/-- A `512 × 512` piece of the values loaded at row offset `512 · c` reads the block at the shifted row. -/
theorem valuesPiece_apply (x3 : FVec Ideal S2048x512 .bf16) (c : ℕ) (hc : 512 * c + 512 ≤ 2048)
    (inb : ∀ a, (![512 * c, 0] : Fin 2 → Nat) a + S512x512.size a ≤ S2048x512.size a) (q k : Fin 512) :
    View.ld (Val := Elt Ideal) (e' := .bf16) x3 (Rect.unit (s := S2048x512) ![512 * c, 0] S512x512.size inb) (ix2 q k)
      = x3 (ix2 ⟨q.val + 512 * c, by have := q.isLt; omega⟩ k) :=
  congrArg x3 (funext fun a => Fin.ext (by
    match a with
    | ⟨0, _⟩ => show 512 * c + 1 * q.val = q.val + 512 * c; omega
    | ⟨1, _⟩ => show 0 + 1 * k.val = k.val; omega))

/-- One block's term is the sum of the contributions of its 512 observations, whenever its two pieces are the
    block's columns of the keys and rows of the values. -/
theorem blockTerm_eq (x0 : FVec Ideal S1000x512 .f32) (x1 : FVec Ideal S512x512 .bf16) (x2 : FVec Ideal S512x2048 .bf16)
    (x3 : FVec Ideal S2048x512 .bf16) (Kc Vc : FVec Ideal S512x512 .bf16) (c : ℕ) (hc : 512 * c + 512 ≤ 2048)
    (hK : ∀ e q : Fin 512, Kc (ix2 e q) = x2 (ix2 e ⟨q.val + 512 * c, by have := q.isLt; omega⟩))
    (hV : ∀ q k : Fin 512, Vc (ix2 q k) = x3 (ix2 ⟨q.val + 512 * c, by have := q.isLt; omega⟩ k))
    (p : Fin 1000) (k : Fin 512) :
    blockTerm (k1_pay2 (F := Ideal) x0 x1) Kc Vc p k
      = ∑ q : Fin 512, Cert.Spec.contrib (fun d => x0 (ix2 p d)) x1 x2 x3 k ⟨q.val + 512 * c, by have := q.isLt; omega⟩ := by
  unfold blockTerm Cert.Spec.contrib Cert.Spec.score
  refine Finset.sum_congr rfl fun q _ => ?_
  rw [hV q k]
  refine congrArg (· * _) (Finset.sum_congr rfl fun e _ => ?_)
  rw [hK e q, query_apply]
  rfl

/-- The output block after the body, at `(p, j)`. -/
theorem out_apply (x0 : FVec Ideal S1000x512 .f32) (x1 : FVec Ideal S512x512 .bf16) (x2 : FVec Ideal S512x2048 .bf16)
    (x3 : FVec Ideal S2048x512 .bf16) (x4 x5 : FVec Ideal S1x512 .f32) (p : Fin 1000) (j : Fin 512) :
    out1_6 (F := Ideal) x0 x1 x2 x3 x4 x5 (ix2 p j)
      = Cert.Spec.outRow (fun d => x0 (ix2 p d)) x1 x2 x3 (fun k => x4 (ix2 (0 : Fin 1) k)) (fun k => x5 (ix2 (0 : Fin 1) k)) j := by
  unfold out1_6
  rw [View.canon_unit_zero zeroOffsets]
  simp only [View.ld_unit_zero (S := S1000x512) zeroOffsets, View.ld_unit_zero (S := S512x512) zeroOffsets,
    View.ld_unit_zero (S := S1x512) zeroOffsets]
  refine (stored_apply _ _ _ _ _ _ _ p j).trans ?_
  unfold Cert.Spec.outRow
  refine congrArg (fun r => Cert.Spec.layerNorm r _ _ j) (funext fun k => ?_)
  unfold Cert.Spec.preNorm Cert.Spec.attend
  refine congrArg (· + x0 (ix2 p k)) ?_
  rw [acc3_apply, ← Cert.Spec.blocks_eq_sum]
  refine congrArg₂ (· + ·) (congrArg₂ (· + ·) (congrArg₂ (· + ·) (congrArg₂ (· + ·) rfl ?_) ?_) ?_) ?_
  · exact blockTerm_eq x0 x1 x2 x3 _ _ 0 (by omega) (fun e q => keysPiece_apply x2 0 (by omega) _ e q)
      (fun q k => valuesPiece_apply x3 0 (by omega) _ q k) p k
  · exact blockTerm_eq x0 x1 x2 x3 _ _ 1 (by omega) (fun e q => keysPiece_apply x2 1 (by omega) _ e q)
      (fun q k => valuesPiece_apply x3 1 (by omega) _ q k) p k
  · exact blockTerm_eq x0 x1 x2 x3 _ _ 2 (by omega) (fun e q => keysPiece_apply x2 2 (by omega) _ e q)
      (fun q k => valuesPiece_apply x3 2 (by omega) _ q k) p k
  · unfold k1_pay4
    rw [shapeCast_self]
    exact blockTerm_eq x0 x1 x2 x3 _ _ 3 (by omega) (fun e q => keysPiece_apply x2 3 (by omega) _ e q)
      (fun q k => valuesPiece_apply x3 3 (by omega) _ q k) p k

end Cert.KernelIdeal.Block

end
-- ==== Proof.MainArray.lean ====
import proofs.«103665_j27943057228188_2_alg».proof.Proof.Gen.KernelIdeal.Frame
import proofs.«103665_j27943057228188_2_alg».proof.Proof.MainBlock

/-!
# The main region's output array after all fifty grid points

Point `t` of the grid works on node rows `1000 t, …, 1000 t + 999` and on the whole of the other five arrays, and
writes back rows `1000 t, …` of the output. Each written block is the same block of one whole-array function, the
specification's `result` of the arrays the region is entered with, and the fifty blocks cover the output: so the
output array ends holding that function.
-/

set_option maxRecDepth 16384

noncomputable section

namespace Cert.KernelIdeal.MainArray

open Idealize.ShloMosaic Idealize.ShloMosaic.TcCoe Idealize.ShloMosaic.ValueIdx Idealize.SL.Sem
open Cert.KernelIdeal Cert.KernelIdeal.Gen Cert.KernelIdeal.Block

variable (V : (c : Dev nD) → (b : Ref sig .tc) → Buf (Elt Ideal) ((c : Thread nD τ).loc b))

/-- The printed index maps, decided over the grid: the node and output windows move one block of rows per point; the
    other five stay on their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 50 := lt_of_lt_of_eq t.isLt N_1

/-- The array row that row `p` of point `t`'s block is. -/
def rowOf (t : Fin cfg1.N) (p : Fin 1000) : Fin 50000 :=
  ⟨1000 * t.val + p.val, by have := point_lt t; have := p.isLt; omega⟩

/-- The node block at a point is the point's rows of the node array. -/
theorem node_read (c : Dev nD) (t : Fin cfg1.N) (p : Fin 1000) (d : Fin 512) :
    iblk1 V c 0 t (ix2 p d) = V c main_arg0 (ix2 (rowOf t p) d) := by
  show V c main_arg0 (((cfg1.win 0).blk t).view.emb (ix2 p d)) = _
  refine congrArg (V c main_arg0) (funext fun a => Fin.ext ?_)
  obtain ⟨e0, e1, -⟩ := idx_facts t
  match a with
  | ⟨0, _⟩ => show win1_0.index t (0 : Fin 2) * 1000 + 1 * p.val = 1000 * t.val + p.val; omega
  | ⟨1, _⟩ => show win1_0.index t (1 : Fin 2) * 512 + 1 * d.val = d.val; omega

/-- The block of the transposed query weights is the whole array, at every point. -/
theorem queryWeights_read (c : Dev nD) (t : Fin cfg1.N) (y : S512x512.Idx) : iblk1 V c 1 t y = V c main_v1 y := by
  show V c main_v1 (((cfg1.win 1).blk t).view.emb y) = _
  refine congrArg (V c main_v1) (funext fun a => Fin.ext ?_)
  obtain ⟨-, -, e0, e1, -⟩ := idx_facts t
  match a with
  | ⟨0, _⟩ => show win1_1.index t (0 : Fin 2) * 512 + 1 * (y 0).val = (y 0).val; omega
  | ⟨1, _⟩ => show win1_1.index t (1 : Fin 2) * 512 + 1 * (y 1).val = (y 1).val; omega

/-- The block of the transposed keys is the whole array, at every point. -/
theorem keys_read (c : Dev nD) (t : Fin cfg1.N) (y : S512x2048.Idx) : iblk1 V c 2 t y = V c main_v6_0 y := by
  show V c main_v6_0 (((cfg1.win 2).blk t).view.emb y) = _
  refine congrArg (V c main_v6_0) (funext fun a => Fin.ext ?_)
  obtain ⟨-, -, -, -, e0, e1, -⟩ := idx_facts t
  match a with
  | ⟨0, _⟩ => show win1_2.index t (0 : Fin 2) * 512 + 1 * (y 0).val = (y 0).val; omega
  | ⟨1, _⟩ => show win1_2.index t (1 : Fin 2) * 2048 + 1 * (y 1).val = (y 1).val; omega

/-- The block of the values is the whole array, at every point. -/
theorem values_read (c : Dev nD) (t : Fin cfg1.N) (y : S2048x512.Idx) : iblk1 V c 3 t y = V c main_v6_1 y := by
  show V c main_v6_1 (((cfg1.win 3).blk t).view.emb y) = _
  refine congrArg (V c main_v6_1) (funext fun a => Fin.ext ?_)
  obtain ⟨-, -, -, -, -, -, e0, e1, -⟩ := idx_facts t
  match a with
  | ⟨0, _⟩ => show win1_3.index t (0 : Fin 2) * 2048 + 1 * (y 0).val = (y 0).val; omega
  | ⟨1, _⟩ => show win1_3.index t (1 : Fin 2) * 512 + 1 * (y 1).val = (y 1).val; omega

/-- The scale block is the whole one-row array, at every point. -/
theorem scale_read (c : Dev nD) (t : Fin cfg1.N) (y : S1x512.Idx) : iblk1 V c 4 t y = V c main_v7 y := by
  show V c main_v7 (((cfg1.win 4).blk t).view.emb y) = _
  refine congrArg (V c main_v7) (funext fun a => Fin.ext ?_)
  obtain ⟨-, -, -, -, -, -, -, -, e0, e1, -⟩ := idx_facts t
  match a with
  | ⟨0, _⟩ => show win1_4.index t (0 : Fin 2) * 1 + 1 * (y 0).val = (y 0).val; omega
  | ⟨1, _⟩ => show win1_4.index t (1 : Fin 2) * 512 + 1 * (y 1).val = (y 1).val; omega

/-- The shift block is the whole one-row array, at every point. -/
theorem shift_read (c : Dev nD) (t : Fin cfg1.N) (y : S1x512.Idx) : iblk1 V c 5 t y = V c main_v8 y := by
  show V c main_v8 (((cfg1.win 5).blk t).view.emb y) = _
  refine congrArg (V c main_v8) (funext fun a => Fin.ext ?_)
  obtain ⟨-, -, -, -, -, -, -, -, -, -, e0, e1, -⟩ := idx_facts t
  match a with
  | ⟨0, _⟩ => show win1_5.index t (0 : Fin 2) * 1 + 1 * (y 0).val = (y 0).val; omega
  | ⟨1, _⟩ => show win1_5.index t (1 : Fin 2) * 512 + 1 * (y 1).val = (y 1).val; omega

/-- Where entry `(p, j)` of point `t`'s output block sits in the output array. -/
theorem out_emb (t : Fin cfg1.N) (p : Fin 1000) (j : Fin 512) :
    ((cfg1.win 6).blk t).view.emb (ix2 p j) = ix2 (rowOf t p) j := by
  funext a; apply Fin.ext
  obtain ⟨-, -, -, -, -, -, -, -, -, -, -, -, e0, e1⟩ := idx_facts t
  match a with
  | ⟨0, _⟩ => show win1_6.index t (0 : Fin 2) * 1000 + 1 * p.val = 1000 * t.val + p.val; omega
  | ⟨1, _⟩ => show win1_6.index t (1 : Fin 2) * 512 + 1 * j.val = j.val; omega

/-- The output as one function of the arrays the region is entered with. -/
def whole (c : Dev nD) : S50000x512.Idx → EReal :=
  Cert.Spec.result (V c main_arg0) (V c main_v1) (V c main_v6_0) (V c main_v6_1)
    (fun k => V c main_v7 (ix2 (0 : Fin 1) k)) (fun k => V c main_v8 (ix2 (0 : Fin 1) k))

/-- What point `t` writes back is block `t` of that function. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  funext y
  obtain ⟨p, j, rfl⟩ : ∃ (p : Fin 1000) (j : Fin 512), y = ix2 p j := ⟨y 0, y 1, eq_ix2 y⟩
  show out1_6 (iblk1 V c 0 t) (iblk1 V c 1 t) (iblk1 V c 2 t) (iblk1 V c 3 t) (iblk1 V c 4 t) (iblk1 V c 5 t) (ix2 p j)
    = whole V c (((cfg1.win 6).blk t).view.emb (ix2 p j))
  refine (out_apply (iblk1 V c 0 t) (iblk1 V c 1 t) (iblk1 V c 2 t) (iblk1 V c 3 t) (iblk1 V c 4 t) (iblk1 V c 5 t) p j).trans ?_
  rw [out_emb t p j]
  unfold whole Cert.Spec.result
  have h1 : (iblk1 V c 1 t : S512x512.Idx → EReal) = V c main_v1 := funext (queryWeights_read V c t)
  have h2 : (iblk1 V c 2 t : S512x2048.Idx → EReal) = V c main_v6_0 := funext (keys_read V c t)
  have h3 : (iblk1 V c 3 t : S2048x512.Idx → EReal) = V c main_v6_1 := funext (values_read V c t)
  have h0 : (fun d : Fin 512 => iblk1 V c 0 t (ix2 p d)) = fun d => V c main_arg0 (ix2 (rowOf t p) d) :=
    funext fun d => node_read V c t p d
  have h4 : (fun k : Fin 512 => iblk1 V c 4 t (ix2 (0 : Fin 1) k)) = fun k => V c main_v7 (ix2 (0 : Fin 1) k) :=
    funext fun k => scale_read V c t _
  have h5 : (fun k : Fin 512 => iblk1 V c 5 t (ix2 (0 : Fin 1) k)) = fun k => V c main_v8 (ix2 (0 : Fin 1) k) :=
    funext fun k => shift_read V c t _
  rw [h0, h1, h2, h3, h4, h5]

/-- An index of the output array is in point `t`'s block iff each coordinate is in the block's range on its axis. -/
theorem mem_blk (t : Fin cfg1.N) (i : S50000x512.Idx) :
    i ∈ ((cfg1.win 6).blk t).view.set ↔ ∀ a : Fin 2, win1_6.index t a * S1000x512.size a ≤ (i a).val
      ∧ (i a).val < win1_6.index t a * S1000x512.size a + S1000x512.size a := by
  show i ∈ ((View.whole main_v9).slice (win1_6.rect t)).set ↔ _
  rw [View.set_slice_whole, Rect.mem_set_unit]
  exact Iff.rfl

/-- Every index of the output array is in the block of the point that its row falls in. -/
theorem cover (i : S50000x512.Idx) :
    ∃ t : Fin cfg1.N, (cfg1.win 6).flush t = true ∧ i ∈ ((cfg1.win 6).blk t).view.set := by
  have hi0 : (i 0).val < 50000 := (i 0).isLt
  have hi1 : (i 1).val < 512 := (i 1).isLt
  have hN : cfg1.N = 50 := N_1
  have ht : (i 0).val / 1000 < cfg1.N := by rw [hN]; omega
  refine ⟨⟨(i 0).val / 1000, ht⟩, flush1_6 _, ?_⟩
  rw [mem_blk]
  obtain ⟨-, -, -, -, -, -, -, -, -, -, -, -, e0, e1⟩ := idx_facts ⟨(i 0).val / 1000, ht⟩
  intro a
  match a with
  | ⟨0, _⟩ =>
    show win1_6.index ⟨(i 0).val / 1000, ht⟩ (0 : Fin 2) * 1000 ≤ (i 0).val
      ∧ (i 0).val < win1_6.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_6.index ⟨(i 0).val / 1000, ht⟩ (1 : Fin 2) * 512 ≤ (i 1).val
      ∧ (i 1).val < win1_6.index ⟨(i 0).val / 1000, ht⟩ (1 : Fin 2) * 512 + 512
    rw [e1]; omega

/-- The output array after the region: the specification's function of the arrays the region is entered with. -/
theorem final (c : Dev nD) : (dat1 V c).arrAt 6 cfg1.N = whole V c :=
  (dat1 V c).arrAt_eq_of_cover 6 (whole V c) (fun t _ => flushed_eq V c t) cover

end Cert.KernelIdeal.MainArray

end
-- ==== Proof.KVArrays.lean ====
import proofs.«103665_j27943057228188_2_alg».proof.Proof.Gen.KernelIdeal.Frame
import proofs.«103665_j27943057228188_2_alg».proof.Proof.KernelOps
import proofs.«103665_j27943057228188_2_alg».proof.Proof.Spec

/-!
# The first region's two output arrays

The key/value kernel runs at one grid point on whole arrays: it multiplies the observations by the (already
transposed) key weights and transposes the product, and multiplies the observations by the value weights. Read at an
index, the transposed keys at `(e, m)` are `∑ o, obs (m, o) · wk (o, e)` and the values at `(m, j)` are
`∑ o, obs (m, o) · wv (o, j)`, in terms of the arrays the region is entered with.
-/

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.Ops

theorem zeroOffsets : (![0, 0] : Fin 2 → Nat) = fun _ => 0 := funext fun a => by fin_cases a <;> rfl

/-- The transposed-keys block after the body, at `(e, m)`. -/
theorem keysOut_apply (x0 : FVec Ideal S2048x256 .f32) (x1 x2 : FVec Ideal S256x512 .bf16) (e : Fin 512) (m : Fin 2048) :
    out0_3 (F := Ideal) x0 x1 x2 (ix2 e m) = ∑ o : Fin 256, x0 (ix2 m o) * x1 (ix2 o e) := by
  unfold out0_3
  rw [View.canon_unit_zero zeroOffsets]
  simp only [View.ld_unit_zero (S := S2048x256) zeroOffsets, View.ld_unit_zero (S := S256x512) zeroOffsets]
  unfold k0_pay2 k0_pay1
  refine (truncf_apply (ψ := .bf16) (φ := .f32) _ bitsLt_bf16_f32 (ix2 e m)).trans ?_
  refine (transpose_ix2_apply _ _ e m).trans ?_
  refine (kvDot_apply _ _ m e).trans ?_
  rw [shapeCast_self]
  rfl

/-- The values block after the body, at `(m, j)`. -/
theorem valuesOut_apply (x0 : FVec Ideal S2048x256 .f32) (x1 x2 : FVec Ideal S256x512 .bf16) (m : Fin 2048) (j : Fin 512) :
    out0_4 (F := Ideal) x0 x1 x2 (ix2 m j) = ∑ o : Fin 256, x0 (ix2 m o) * x2 (ix2 o j) := by
  unfold out0_4
  rw [View.canon_unit_zero zeroOffsets]
  simp only [View.ld_unit_zero (S := S2048x256) zeroOffsets, View.ld_unit_zero (S := S256x512) zeroOffsets]
  unfold k0_pay3 k0_pay1
  refine (truncf_apply (ψ := .bf16) (φ := .f32) _ bitsLt_bf16_f32 (ix2 m j)).trans ?_
  refine (kvDot_apply _ _ m j).trans ?_
  rw [shapeCast_self]
  rfl

variable (V : (c : Dev nD) → (b : Ref sig .tc) → Buf (Elt Ideal) ((c : Thread nD τ).loc b))

/-- The printed index maps at the one grid point: every window is on its one block. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The observations block is the whole array. -/
theorem obs_read (c : Dev nD) (t : Fin cfg0.N) (y : S2048x256.Idx) : iblk0 V c 0 t y = V c main_arg1 y := by
  show V c main_arg1 (((cfg0.win 0).blk t).view.emb y) = _
  refine congrArg (V c main_arg1) (funext fun a => Fin.ext ?_)
  obtain ⟨e0, e1, -⟩ := idx_facts t
  match a with
  | ⟨0, _⟩ => show win0_0.index t (0 : Fin 2) * 2048 + 1 * (y 0).val = (y 0).val; omega
  | ⟨1, _⟩ => show win0_0.index t (1 : Fin 2) * 256 + 1 * (y 1).val = (y 1).val; omega

/-- The key-weights block is the whole array. -/
theorem keyWeights_read (c : Dev nD) (t : Fin cfg0.N) (y : S256x512.Idx) : iblk0 V c 1 t y = V c main_v3 y := by
  show V c main_v3 (((cfg0.win 1).blk t).view.emb y) = _
  refine congrArg (V c main_v3) (funext fun a => Fin.ext ?_)
  obtain ⟨-, -, e0, e1, -⟩ := idx_facts t
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- The value-weights block is the whole array. -/
theorem valueWeights_read (c : Dev nD) (t : Fin cfg0.N) (y : S256x512.Idx) : iblk0 V c 2 t y = V c main_v5 y := by
  show V c main_v5 (((cfg0.win 2).blk t).view.emb y) = _
  refine congrArg (V c main_v5) (funext fun a => Fin.ext ?_)
  obtain ⟨-, -, -, -, e0, e1, -⟩ := idx_facts t
  match a with
  | ⟨0, _⟩ => show win0_2.index t (0 : Fin 2) * 256 + 1 * (y 0).val = (y 0).val; omega
  | ⟨1, _⟩ => show win0_2.index t (1 : Fin 2) * 512 + 1 * (y 1).val = (y 1).val; omega

/-- The product of a `2048 × 256` by a `256 × 512` array, transposed: entry `(e, m)` is row `m` against column `e`. -/
def prodT (A : Cert.Spec.Arr2 2048 256) (B : Cert.Spec.Arr2 256 512) : Cert.Spec.Arr2 512 2048 :=
  fun i => ∑ o : Fin 256, A (ix2 (i 1) o) * B (ix2 o (i 0))

/-- The product of a `2048 × 256` by a `256 × 512` array: entry `(m, j)` is row `m` against column `j`. -/
def prod (A : Cert.Spec.Arr2 2048 256) (B : Cert.Spec.Arr2 256 512) : Cert.Spec.Arr2 2048 512 :=
  fun i => ∑ o : Fin 256, A (ix2 (i 0) o) * B (ix2 o (i 1))

/-- The transposed keys as one function of the arrays the region is entered with. -/
def keysWhole (c : Dev nD) : S512x2048.Idx → EReal := prodT (V c main_arg1) (V c main_v3)

/-- The values as one function of the arrays the region is entered with. -/
def valuesWhole (c : Dev nD) : S2048x512.Idx → EReal := prod (V c main_arg1) (V c main_v5)

theorem keys_emb (t : Fin cfg0.N) (y : S512x2048.Idx) : ((cfg0.win 3).blk t).view.emb y = y := by
  funext a; apply Fin.ext
  obtain ⟨-, -, -, -, -, -, e0, e1, -⟩ := idx_facts t
  match a with
  | ⟨0, _⟩ => show win0_3.index t (0 : Fin 2) * 512 + 1 * (y 0).val = (y 0).val; omega
  | ⟨1, _⟩ => show win0_3.index t (1 : Fin 2) * 2048 + 1 * (y 1).val = (y 1).val; omega

theorem values_emb (t : Fin cfg0.N) (y : S2048x512.Idx) : ((cfg0.win 4).blk t).view.emb y = y := by
  funext a; apply Fin.ext
  obtain ⟨-, -, -, -, -, -, -, -, e0, e1⟩ := idx_facts t
  match a with
  | ⟨0, _⟩ => show win0_4.index t (0 : Fin 2) * 2048 + 1 * (y 0).val = (y 0).val; omega
  | ⟨1, _⟩ => show win0_4.index t (1 : Fin 2) * 512 + 1 * (y 1).val = (y 1).val; omega

/-- What the one point writes back of the transposed keys. -/
theorem keys_flushed (c : Dev nD) (t : Fin cfg0.N) :
    (dat0 V c).flushed 3 t = ((cfg0.win 3).blk t).view.read (Elt Ideal) (keysWhole V c) := by
  show (cfg0.win 3).cut (grid0.coords t) ((dat0 V c).after 3 t) = _
  rw [after0_3]
  funext y
  obtain ⟨e, m, rfl⟩ : ∃ (e : Fin 512) (m : Fin 2048), y = ix2 e m := ⟨y 0, y 1, eq_ix2 y⟩
  show out0_3 (iblk0 V c 0 t) (iblk0 V c 1 t) (iblk0 V c 2 t) (ix2 e m) = keysWhole V c (((cfg0.win 3).blk t).view.emb (ix2 e m))
  refine (keysOut_apply (iblk0 V c 0 t) (iblk0 V c 1 t) (iblk0 V c 2 t) e m).trans ?_
  rw [keys_emb t (ix2 e m)]
  unfold keysWhole prodT
  exact Finset.sum_congr rfl fun o _ => congrArg₂ (· * ·) (obs_read V c t _) (keyWeights_read V c t _)

/-- What the one point writes back of the values. -/
theorem values_flushed (c : Dev nD) (t : Fin cfg0.N) :
    (dat0 V c).flushed 4 t = ((cfg0.win 4).blk t).view.read (Elt Ideal) (valuesWhole V c) := by
  show (cfg0.win 4).cut (grid0.coords t) ((dat0 V c).after 4 t) = _
  rw [after0_4]
  funext y
  obtain ⟨m, j, rfl⟩ : ∃ (m : Fin 2048) (j : Fin 512), y = ix2 m j := ⟨y 0, y 1, eq_ix2 y⟩
  show out0_4 (iblk0 V c 0 t) (iblk0 V c 1 t) (iblk0 V c 2 t) (ix2 m j) = valuesWhole V c (((cfg0.win 4).blk t).view.emb (ix2 m j))
  refine (valuesOut_apply (iblk0 V c 0 t) (iblk0 V c 1 t) (iblk0 V c 2 t) m j).trans ?_
  rw [values_emb t (ix2 m j)]
  unfold valuesWhole prod
  exact Finset.sum_congr rfl fun o _ => congrArg₂ (· * ·) (obs_read V c t _) (valueWeights_read V c t _)

theorem keys_mem_blk (t : Fin cfg0.N) (i : S512x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v6_0).slice (win0_3.rect t)).set ↔ _
  rw [View.set_slice_whole, Rect.mem_set_unit]
  exact Iff.rfl

theorem values_mem_blk (t : Fin cfg0.N) (i : S2048x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v6_1).slice (win0_4.rect t)).set ↔ _
  rw [View.set_slice_whole, Rect.mem_set_unit]
  exact Iff.rfl

theorem keys_cover (i : S512x2048.Idx) :
    ∃ t : Fin cfg0.N, (cfg0.win 3).flush t = true ∧ i ∈ ((cfg0.win 3).blk t).view.set := by
  have hi0 : (i 0).val < 512 := (i 0).isLt
  have hi1 : (i 1).val < 2048 := (i 1).isLt
  refine ⟨t0_0, flush0_3 _, ?_⟩
  rw [keys_mem_blk]
  obtain ⟨-, -, -, -, -, -, e0, e1, -⟩ := idx_facts t0_0
  intro a
  match a with
  | ⟨0, _⟩ =>
    show win0_3.index t0_0 (0 : Fin 2) * 512 ≤ (i 0).val ∧ (i 0).val < win0_3.index t0_0 (0 : Fin 2) * 512 + 512
    omega
  | ⟨1, _⟩ =>
    show win0_3.index t0_0 (1 : Fin 2) * 2048 ≤ (i 1).val ∧ (i 1).val < win0_3.index t0_0 (1 : Fin 2) * 2048 + 2048
    omega

theorem values_cover (i : S2048x512.Idx) :
    ∃ t : Fin cfg0.N, (cfg0.win 4).flush t = true ∧ i ∈ ((cfg0.win 4).blk t).view.set := by
  have hi0 : (i 0).val < 2048 := (i 0).isLt
  have hi1 : (i 1).val < 512 := (i 1).isLt
  refine ⟨t0_0, flush0_4 _, ?_⟩
  rw [values_mem_blk]
  obtain ⟨-, -, -, -, -, -, -, -, e0, e1⟩ := idx_facts t0_0
  intro a
  match a with
  | ⟨0, _⟩ =>
    show win0_4.index t0_0 (0 : Fin 2) * 2048 ≤ (i 0).val ∧ (i 0).val < win0_4.index t0_0 (0 : Fin 2) * 2048 + 2048
    omega
  | ⟨1, _⟩ =>
    show win0_4.index t0_0 (1 : Fin 2) * 512 ≤ (i 1).val ∧ (i 1).val < win0_4.index t0_0 (1 : Fin 2) * 512 + 512
    omega

/-- The transposed-keys array after the region. -/
theorem keys_final (c : Dev nD) : (dat0 V c).arrAt 3 cfg0.N = keysWhole V c :=
  (dat0 V c).arrAt_eq_of_cover 3 (keysWhole V c) (fun t _ => keys_flushed V c t) keys_cover

/-- The values array after the region. -/
theorem values_final (c : Dev nD) : (dat0 V c).arrAt 4 cfg0.N = valuesWhole V c :=
  (dat0 V c).arrAt_eq_of_cover 4 (valuesWhole V c) (fun t _ => values_flushed V c t) values_cover

end Cert.KernelIdeal.KV

end
-- ==== Proof.HostStages.lean ====
import proofs.«103665_j27943057228188_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

/-!
# What the regions' input arrays hold, in terms of the arguments

Before the first region the host transposes the three weight matrices (the change of float format that follows is the
identity on the extended reals); between the regions it re-lays the scale and the shift as one-row arrays. Nothing
else touches an argument, and the first region's two outputs reach the second region as it left them.
-/

set_option maxRecDepth 16384

noncomputable section

namespace Cert.KernelIdeal.Stages

open Idealize.ShloMosaic Idealize.ShloMosaic.TcCoe Idealize.ShloMosaic.ValueIdx Idealize.SL.Sem
  Idealize.ShloMosaic.StableHlo
open Cert.KernelIdeal Cert.KernelIdeal.Gen

variable (m : (ℓ : Loc nD τ sig) → Buf (Elt Ideal) ℓ) (ρ : Dev nD → PrngReg)

/-! ## At the first region's entry -/

/-- The observations are the argument. -/
theorem entry0_obs (c : Dev nD) : V1 m ρ c main_arg1 = m ((c : Thread nD τ).loc main_arg1) := by
  show StableHlo.after hostOps0 (W0 m ρ c) (Proc.devRef .tc main_arg1) = _
  after_results <;> rfl

/-- The key weights reach the first region transposed. -/
theorem entry0_keyWeights (c : Dev nD) (o : Fin 256) (e : Fin 512) :
    V1 m ρ c main_v3 (ix2 o e) = m ((c : Thread nD τ).loc main_arg3) (ix2 e o) := by
  have h : (V1 m ρ c main_v3 : S256x512.Idx → EReal)
      = (truncf .bf16 (transpose S256x512 [1, 0] (m ((c : Thread nD τ).loc main_arg3)) transposes_S512x256_S256x512_1_0)
          bitsLt_bf16_f32 : FVec Ideal S256x512 .bf16) := by
    show StableHlo.after hostOps0 (W0 m ρ c) (Proc.devRef .tc main_v3) = _
    after_results <;> rfl
  rw [h]
  exact transpose_ix2_apply _ _ o e

/-- The value weights reach the first region transposed. -/
theorem entry0_valueWeights (c : Dev nD) (o : Fin 256) (j : Fin 512) :
    V1 m ρ c main_v5 (ix2 o j) = m ((c : Thread nD τ).loc main_arg4) (ix2 j o) := by
  have h : (V1 m ρ c main_v5 : S256x512.Idx → EReal)
      = (truncf .bf16 (transpose S256x512 [1, 0] (m ((c : Thread nD τ).loc main_arg4)) transposes_S512x256_S256x512_1_0)
          bitsLt_bf16_f32 : FVec Ideal S256x512 .bf16) := by
    show StableHlo.after hostOps0 (W0 m ρ c) (Proc.devRef .tc main_v5) = _
    after_results <;> rfl
  rw [h]
  exact transpose_ix2_apply _ _ o j

/-! ## At the second region's entry -/

/-- The node features are the argument. -/
theorem entry1_nodes (c : Dev nD) : V3 m ρ c main_arg0 = m ((c : Thread nD τ).loc main_arg0) := by
  have h3 : W3 m ρ c (Proc.devRef .tc main_arg0) = W2 m ρ c (Proc.devRef .tc main_arg0) := by
    show StableHlo.after hostOps1 (W2 m ρ c) (Proc.devRef .tc main_arg0) = _
    after_results
  have h1 : W1 m ρ c (Proc.devRef .tc main_arg0) = m ((c : Thread nD τ).loc main_arg0) := by
    show StableHlo.after hostOps0 (W0 m ρ c) (Proc.devRef .tc main_arg0) = _
    after_results <;> rfl
  exact h3.trans ((W2_of_ne m ρ c main_arg0 (by decide)).trans h1)

/-- The query weights reach the second region transposed. -/
theorem entry1_queryWeights (c : Dev nD) (d e : Fin 512) :
    V3 m ρ c main_v1 (ix2 d e) = m ((c : Thread nD τ).loc main_arg2) (ix2 e d) := by
  have h3 : W3 m ρ c (Proc.devRef .tc main_v1) = W2 m ρ c (Proc.devRef .tc main_v1) := by
    show StableHlo.after hostOps1 (W2 m ρ c) (Proc.devRef .tc main_v1) = _
    after_results
  have h1 : (W1 m ρ c (Proc.devRef .tc main_v1) : S512x512.Idx → EReal)
      = (truncf .bf16 (transpose S512x512 [1, 0] (m ((c : Thread nD τ).loc main_arg2)) transposes_S512x512_S512x512_1_0)
          bitsLt_bf16_f32 : FVec Ideal S512x512 .bf16) := by
    show StableHlo.after hostOps0 (W0 m ρ c) (Proc.devRef .tc main_v1) = _
    after_results <;> rfl
  have h : (V3 m ρ c main_v1 : S512x512.Idx → EReal) = _ := h3.trans ((W2_of_ne m ρ c main_v1 (by decide)).trans h1)
  rw [h]
  exact transpose_ix2_apply _ _ d e

/-- The transposed keys reach the second region as the first region left them. -/
theorem entry1_keys (c : Dev nD) : V3 m ρ c main_v6_0 = (dat0 (V1 m ρ) c).arrAt 3 cfg0.N := by
  have h3 : W3 m ρ c (Proc.devRef .tc main_v6_0) = W2 m ρ c (Proc.devRef .tc main_v6_0) := by
    show StableHlo.after hostOps1 (W2 m ρ c) (Proc.devRef .tc main_v6_0) = _
    after_results
  exact h3.trans (W2_arr m ρ c 3)

/-- The values reach the second region as the first region left them. -/
theorem entry1_values (c : Dev nD) : V3 m ρ c main_v6_1 = (dat0 (V1 m ρ) c).arrAt 4 cfg0.N := by
  have h3 : W3 m ρ c (Proc.devRef .tc main_v6_1) = W2 m ρ c (Proc.devRef .tc main_v6_1) := by
    show StableHlo.after hostOps1 (W2 m ρ c) (Proc.devRef .tc main_v6_1) = _
    after_results
  exact h3.trans (W2_arr m ρ c 4)

/-- An argument that only the second stretch of host operations reads is still the launch contents there. -/
theorem between_scale (c : Dev nD) : W2 m ρ c (Proc.devRef .tc main_arg5) = m ((c : Thread nD τ).loc main_arg5) := by
  have h1 : W1 m ρ c (Proc.devRef .tc main_arg5) = m ((c : Thread nD τ).loc main_arg5) := by
    show StableHlo.after hostOps0 (W0 m ρ c) (Proc.devRef .tc main_arg5) = _
    after_results <;> rfl
  exact (W2_of_ne m ρ c main_arg5 (by decide)).trans h1

theorem between_shift (c : Dev nD) : W2 m ρ c (Proc.devRef .tc main_arg6) = m ((c : Thread nD τ).loc main_arg6) := by
  have h1 : W1 m ρ c (Proc.devRef .tc main_arg6) = m ((c : Thread nD τ).loc main_arg6) := by
    show StableHlo.after hostOps0 (W0 m ρ c) (Proc.devRef .tc main_arg6) = _
    after_results <;> rfl
  exact (W2_of_ne m ρ c main_arg6 (by decide)).trans h1

/-- The scale reaches the second region as a one-row array. -/
theorem entry1_scale (c : Dev nD) (k : Fin 512) :
    V3 m ρ c main_v7 (ix2 (0 : Fin 1) k) = m ((c : Thread nD τ).loc main_arg5) (ix1 k) := by
  have h : (V3 m ρ c main_v7 : S1x512.Idx → EReal)
      = shapeCast S1x512 (W2 m ρ c (Proc.devRef .tc main_arg5)) shapeCasts_S512_S1x512 := by
    show StableHlo.after hostOps1 (W2 m ρ c) (Proc.devRef .tc main_v7) = _
    after_results <;> rfl
  rw [h, between_scale]
  exact shapeCast_a_1a_apply _ _ (0 : Fin 1) k

/-- The shift reaches the second region as a one-row array. -/
theorem entry1_shift (c : Dev nD) (k : Fin 512) :
    V3 m ρ c main_v8 (ix2 (0 : Fin 1) k) = m ((c : Thread nD τ).loc main_arg6) (ix1 k) := by
  have h : (V3 m ρ c main_v8 : S1x512.Idx → EReal)
      = shapeCast S1x512 (W2 m ρ c (Proc.devRef .tc main_arg6)) shapeCasts_S512_S1x512 := by
    show StableHlo.after hostOps1 (W2 m ρ c) (Proc.devRef .tc main_v8) = _
    after_results <;> rfl
  rw [h, between_shift]
  exact shapeCast_a_1a_apply _ _ (0 : Fin 1) k

end Cert.KernelIdeal.Stages

end
-- ==== Proof.KernelValue.lean ====
import proofs.«103665_j27943057228188_2_alg».proof.Proof.KernelRun
import proofs.«103665_j27943057228188_2_alg».proof.Proof.MainArray
import proofs.«103665_j27943057228188_2_alg».proof.Proof.KVArrays
import proofs.«103665_j27943057228188_2_alg».proof.Proof.HostStages

/-!
# The idealized kernel computes the specification

The second region's output array is the specification's `result` of the arrays that region is entered with
(the fifty blocks of rows); those arrays are the node features, the transposed query weights, the first region's
transposed keys and values (products of the observations with the transposed key and value weights) and the scale
and shift as rows. Substituting, the result buffer ends holding the specification's `output` of the seven arguments.
-/

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The transposed keys the second region is entered with, in terms of the arguments. -/
theorem keys_eq (c : Dev nD) :
    (V3 m ρ c main_v6_0 : Cert.Spec.Arr2 512 2048)
      = Cert.Spec.keysT (m ((c : Thread nD τ).loc main_arg1)) (m ((c : Thread nD τ).loc main_arg3)) := by
  rw [Stages.entry1_keys, KV.keys_final]
  funext i
  obtain ⟨e, k, rfl⟩ : ∃ (e : Fin 512) (k : Fin 2048), i = ix2 e k := ⟨i 0, i 1, eq_ix2 i⟩
  unfold KV.keysWhole KV.prodT Cert.Spec.keysT
  refine Finset.sum_congr rfl fun o _ => ?_
  exact congrArg₂ (fun a b : EReal => a * b) (congrFun (Stages.entry0_obs m ρ c) _)
    (Stages.entry0_keyWeights m ρ c o e)

/-- The values the second region is entered with, in terms of the arguments. -/
theorem values_eq (c : Dev nD) :
    (V3 m ρ c main_v6_1 : Cert.Spec.Arr2 2048 512)
      = Cert.Spec.values (m ((c : Thread nD τ).loc main_arg1)) (m ((c : Thread nD τ).loc main_arg4)) := by
  rw [Stages.entry1_values, KV.values_final]
  funext i
  obtain ⟨k, j, rfl⟩ : ∃ (k : Fin 2048) (j : Fin 512), i = ix2 k j := ⟨i 0, i 1, eq_ix2 i⟩
  unfold KV.valuesWhole KV.prod Cert.Spec.values
  refine Finset.sum_congr rfl fun o _ => ?_
  exact congrArg₂ (fun a b : EReal => a * b) (congrFun (Stages.entry0_obs m ρ c) _)
    (Stages.entry0_valueWeights m ρ c o j)

/-- The transposed query weights the second region is entered with, in terms of the argument. -/
theorem queryWeights_eq (c : Dev nD) :
    (V3 m ρ c main_v1 : Cert.Spec.Arr2 512 512) = Cert.Spec.transposeQ (m ((c : Thread nD τ).loc main_arg2)) := by
  funext i
  obtain ⟨d, e, rfl⟩ : ∃ (d e : Fin 512), i = ix2 d e := ⟨i 0, i 1, eq_ix2 i⟩
  exact Stages.entry1_queryWeights m ρ c d e

/-- The result buffer's final contents are the specification's function of the seven arguments. -/
theorem result_eq (c : Dev nD) :
    (dat1 (V3 m ρ) c).arrAt 6 cfg1.N
      = Cert.Spec.output (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [MainArray.final (V3 m ρ) c]
  unfold MainArray.whole Cert.Spec.output
  have h4 : (fun k : Fin 512 => (V3 m ρ c main_v7 : S1x512.Idx → EReal) (ix2 (0 : Fin 1) k))
      = fun j => m ((c : Thread nD τ).loc main_arg5) (ix1 j) := funext (Stages.entry1_scale m ρ c)
  have h5 : (fun k : Fin 512 => (V3 m ρ c main_v8 : S1x512.Idx → EReal) (ix2 (0 : Fin 1) k))
      = fun j => m ((c : Thread nD τ).loc main_arg6) (ix1 j) := funext (Stages.entry1_shift m ρ c)
  rw [Stages.entry1_nodes, queryWeights_eq, keys_eq, values_eq]
  exact congrArg₂ (Cert.Spec.result _ _ _ _) h4 h5

/-- Every weakly fair execution of the idealized kernel terminates, nothing faulting, with the result buffer at the
    specification's function of the arguments and the arguments unchanged. -/
theorem run : θ_run defs (onTc (τ := τ) (main (F := Ideal))) ⟨m, fun _ => 0, ρ⟩ (fun r => ∀ c : Dev nD,
      r.2.mem ((c.tc : Thread nD τ).loc main_v9)
        = Cert.Spec.output (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (RunValue.run_result m ρ)

end Cert.KernelIdeal.KernelValue

end
-- ==== Proof.RefValue.lean ====
import proofs.«103665_j27943057228188_2_alg».proof.Proof.Gen.ReferenceIdeal.Read
import proofs.«103665_j27943057228188_2_alg».proof.Proof.Spec
import Idealize.ShloMosaic.Lib.ValueIdx
import Idealize.ShloMosaic.PureOps.Ideal.Laws

/-!
# The reference computes the specification

Read one operation at a time, the reference's result at row `n` and feature `j` is the layer normalisation of the row
`attend + node`, where the queries, the transposed keys and the values are the three projections and the attended row is
the two matrix products over all 2048 observations at once.
-/

noncomputable section

namespace Cert.ReferenceIdeal.RefValue

open Cert.ReferenceIdeal Cert.ReferenceIdeal.Read Idealize.ShloMosaic Idealize.ShloMosaic.ValueIdx

variable (x0 : (⟨S50000x512, .f32⟩ : BufTy).Contents (Elt Ideal)) (x1 : (⟨S2048x256, .f32⟩ : BufTy).Contents (Elt Ideal))
  (x2 : (⟨S512x512, .f32⟩ : BufTy).Contents (Elt Ideal)) (x3 x4 : (⟨S512x256, .f32⟩ : BufTy).Contents (Elt Ideal))
  (x5 x6 : (⟨S512, .f32⟩ : BufTy).Contents (Elt Ideal))

/-- The transposed query weights. -/
theorem queryWeights_eq : val_main_v0 (F := Ideal) x2 = Cert.Spec.transposeQ x2 := by
  funext i
  rw [val_main_v0_apply]
  exact congrArg x2 (funext fun a => Fin.ext (by match a with | ⟨0, _⟩ => rfl | ⟨1, _⟩ => rfl))

/-- The transposed keys. -/
theorem keysT_eq : val_main_v6 (F := Ideal) x1 x3 = Cert.Spec.keysT x1 x3 := by
  funext i
  rw [val_main_v6_apply, val_main_v3_apply]
  unfold Cert.Spec.keysT
  refine Finset.sum_congr rfl fun k _ => ?_
  rw [val_main_v2_apply]
  refine congrArg₂ (· * ·) (congrArg x1 (funext fun a => Fin.ext ?_)) (congrArg x3 (funext fun a => Fin.ext ?_))
  · match a with | ⟨0, _⟩ => rfl | ⟨1, _⟩ => rfl
  · match a with | ⟨0, _⟩ => rfl | ⟨1, _⟩ => rfl

/-- The values. -/
theorem values_eq : val_main_v5 (F := Ideal) x1 x4 = Cert.Spec.values x1 x4 := by
  funext i
  rw [val_main_v5_apply]
  unfold Cert.Spec.values
  refine Finset.sum_congr rfl fun k _ => ?_
  rw [val_main_v4_apply]
  refine congrArg₂ (· * ·) (congrArg x1 (funext fun a => Fin.ext ?_)) (congrArg x4 (funext fun a => Fin.ext ?_))
  · match a with | ⟨0, _⟩ => rfl | ⟨1, _⟩ => rfl
  · match a with | ⟨0, _⟩ => rfl | ⟨1, _⟩ => rfl

/-- The row that is normalised: the two products over all observations plus the node row. -/
theorem preNorm_eq (n : Fin 50000) (j : Fin 512) :
    val_main_v9 (F := Ideal) x0 x1 x2 x3 x4 (ix2 n j)
      = Cert.Spec.preNorm (fun d => x0 (ix2 n d)) (val_main_v0 (F := Ideal) x2) (val_main_v6 (F := Ideal) x1 x3)
          (val_main_v5 (F := Ideal) x1 x4) j := by
  rw [val_main_v9_apply, val_main_v8_apply]
  unfold Cert.Spec.preNorm Cert.Spec.attend Cert.Spec.contrib
  refine congrArg (· + x0 (ix2 n j)) (Finset.sum_congr rfl fun k _ => ?_)
  rw [val_main_v7_apply]
  unfold Cert.Spec.score
  refine congrArg₂ (· * ·) (Finset.sum_congr rfl fun e _ => ?_)
    (congrArg (val_main_v5 (F := Ideal) x1 x4) (funext fun a => Fin.ext ?_))
  · rw [val_main_v1_apply]
    unfold Cert.Spec.query
    refine congrArg₂ (· * ·) (Finset.sum_congr rfl fun d _ => ?_)
      (congrArg (val_main_v6 (F := Ideal) x1 x3) (funext fun a => Fin.ext ?_))
    · refine congrArg₂ (· * ·) (congrArg x0 (funext fun a => Fin.ext ?_))
        (congrArg (val_main_v0 (F := Ideal) x2) (funext fun a => Fin.ext ?_))
      · match a with | ⟨0, _⟩ => rfl | ⟨1, _⟩ => rfl
      · match a with | ⟨0, _⟩ => rfl | ⟨1, _⟩ => rfl
    · match a with | ⟨0, _⟩ => rfl | ⟨1, _⟩ => rfl
  · match a with | ⟨0, _⟩ => rfl | ⟨1, _⟩ => rfl

/-- The column of row means. -/
theorem mean_eq (n : Fin 50000) :
    val_main_v13 (F := Ideal) x0 x1 x2 x3 x4 (ix2 n (0 : Fin 1))
      = Cert.Spec.mean (fun k => val_main_v9 (F := Ideal) x0 x1 x2 x3 x4 (ix2 n k)) := by
  rw [val_main_v13_apply, val_main_v11_apply, val_main_v10_apply, val_main_v12_apply]
  unfold Cert.Spec.mean Cert.Spec.nFeat
  show Ideal.div (Ideal.ofBits .f32 0x00000000#32 + _) (Ideal.ofBits .f32 0x44000000#32) = _
  rw [Ideal.ofBits_zero_f32, zero_add]
  refine congrArg (Ideal.div · _) (Finset.sum_congr rfl fun k _ =>
    congrArg (val_main_v9 (F := Ideal) x0 x1 x2 x3 x4) (funext fun a => Fin.ext ?_))
  match a with | ⟨0, _⟩ => rfl | ⟨1, _⟩ => rfl

/-- The deviation of an entry from its row's mean. -/
theorem deviation_eq (n : Fin 50000) (k : Fin 512) :
    val_main_v15 (F := Ideal) x0 x1 x2 x3 x4 (ix2 n k)
      = val_main_v9 (F := Ideal) x0 x1 x2 x3 x4 (ix2 n k)
        - Cert.Spec.mean (fun k => val_main_v9 (F := Ideal) x0 x1 x2 x3 x4 (ix2 n k)) := by
  rw [val_main_v15_apply, val_main_v14_apply,
    show idx_main_v14 (ix2 n k) = ix2 n (0 : Fin 1) from funext fun a => Fin.ext (by
      match a with | ⟨0, _⟩ => rfl | ⟨1, _⟩ => rfl), mean_eq]
  rfl

/-- The column of row variances. -/
theorem variance_eq (n : Fin 50000) :
    val_main_v20 (F := Ideal) x0 x1 x2 x3 x4 (ix2 n (0 : Fin 1))
      = Cert.Spec.variance (fun k => val_main_v9 (F := Ideal) x0 x1 x2 x3 x4 (ix2 n k)) := by
  rw [val_main_v20_apply, val_main_v18_apply, val_main_v17_apply, val_main_v19_apply]
  unfold Cert.Spec.variance Cert.Spec.nFeat
  show Ideal.div (Ideal.ofBits .f32 0x00000000#32 + _) (Ideal.ofBits .f32 0x44000000#32) = _
  rw [Ideal.ofBits_zero_f32, zero_add]
  refine congrArg (Ideal.div · _) (Finset.sum_congr rfl fun k _ => ?_)
  rw [show idx_main_v17 (idx_main_v18 (ix2 n (0 : Fin 1))) k = ix2 n k from funext fun a => Fin.ext (by
      match a with | ⟨0, _⟩ => rfl | ⟨1, _⟩ => rfl), val_main_v16_apply, deviation_eq]
  rfl

/-- The reference's result, entry by entry, is the layer normalisation of the row `attend + node`. -/
theorem result_apply (n : Fin 50000) (j : Fin 512) :
    val_main_v33 (F := Ideal) x0 x1 x2 x3 x4 x5 x6 (ix2 n j)
      = Cert.Spec.layerNorm (fun k => val_main_v9 (F := Ideal) x0 x1 x2 x3 x4 (ix2 n k))
          (fun k => x5 (ix1 k)) (fun k => x6 (ix1 k)) j := by
  rw [val_main_v33_apply, val_main_v30_apply, val_main_v27_apply, val_main_v22_apply, val_main_v21_apply,
    val_main_v26_apply, val_main_v25_apply, val_main_v24_apply, val_main_v23_apply, val_main_v29_apply,
    val_main_v28_apply, val_main_v32_apply, val_main_v31_apply,
    show idx_main_v21 (ix2 n j) = ix2 n (0 : Fin 1) from funext fun a => Fin.ext (by
      match a with | ⟨0, _⟩ => rfl | ⟨1, _⟩ => rfl),
    show idx_main_v26 (ix2 n j) = ix2 n (0 : Fin 1) from funext fun a => Fin.ext (by
      match a with | ⟨0, _⟩ => rfl | ⟨1, _⟩ => rfl),
    mean_eq, variance_eq]
  unfold Cert.Spec.layerNorm Cert.Spec.epsLN
  refine congrArg₂ (· + ·) (congrArg₂ (· * ·) rfl (congrArg x5 (funext fun a => Fin.ext ?_)))
    (congrArg x6 (funext fun a => Fin.ext ?_))
  · match a with | ⟨0, _⟩ => rfl
  · match a with | ⟨0, _⟩ => rfl

/-- The reference's result is the specification's function of the seven arguments. -/
theorem result_eq : val_main_v33 (F := Ideal) x0 x1 x2 x3 x4 x5 x6 = Cert.Spec.output x0 x1 x2 x3 x4 x5 x6 := by
  funext i
  obtain ⟨n, j, rfl⟩ : ∃ (n : Fin 50000) (j : Fin 512), i = ix2 n j := ⟨i 0, i 1, eq_ix2 i⟩
  rw [result_apply]
  unfold Cert.Spec.output Cert.Spec.result Cert.Spec.outRow
  refine congrArg (fun r => Cert.Spec.layerNorm r _ _ j) (funext fun k => ?_)
  rw [preNorm_eq, queryWeights_eq, keysT_eq, values_eq]

end Cert.ReferenceIdeal.RefValue

end
-- ==== Proof.lean ====
/-
  A Pallas kernel pair for un-normalised cross attention with a residual layer normalisation, against its plain
  reference. Both compute, for every node row `x`,

    `layerNorm (x · Wqᵀ · (obs · Wkᵀ)ᵀ · (obs · Wvᵀ) + x) · γ + β`.

  The kernel computes the keys (already transposed) and the values in a first launch, then streams the nodes in blocks
  of 1000 rows, taking the sum over the 2048 observations as four blocks of 512 accumulated from zero; the reference
  takes the same products over whole arrays. On the extended reals a change of float format is the identity and a sum
  may be regrouped freely, so the two results agree entry by entry; no finiteness of the inputs is needed for that.
  The three frames are the generated ones; the idealization rewrote nothing.
-/
import proofs.«103665_j27943057228188_2_alg».proof.Defs
import proofs.«103665_j27943057228188_2_alg».proof.Proof.Gen.Kernel
import proofs.«103665_j27943057228188_2_alg».proof.Proof.Gen.Kernel.Skeleton
import proofs.«103665_j27943057228188_2_alg».proof.Proof.Gen.Kernel.Launch
import proofs.«103665_j27943057228188_2_alg».proof.Proof.Gen.Kernel.Points
import proofs.«103665_j27943057228188_2_alg».proof.Proof.Gen.Kernel.Frame
import proofs.«103665_j27943057228188_2_alg».proof.Proof.Gen.KernelIdeal
import proofs.«103665_j27943057228188_2_alg».proof.Proof.Gen.KernelIdeal.Skeleton
import proofs.«103665_j27943057228188_2_alg».proof.Proof.Gen.KernelIdeal.Launch
import proofs.«103665_j27943057228188_2_alg».proof.Proof.Gen.KernelIdeal.Points
import proofs.«103665_j27943057228188_2_alg».proof.Proof.Gen.KernelIdeal.Frame
import proofs.«103665_j27943057228188_2_alg».proof.Proof.Gen.ReferenceIdeal
import proofs.«103665_j27943057228188_2_alg».proof.Proof.Gen.ReferenceIdeal.Run
import proofs.«103665_j27943057228188_2_alg».proof.Proof.Gen.ReferenceIdeal.Read
import proofs.«103665_j27943057228188_2_alg».proof.Proof.Gen.Pre_finite_inputs
import proofs.«103665_j27943057228188_2_alg».proof.Proof.KernelValue
import proofs.«103665_j27943057228188_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result at the specification's function of the arguments, which agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
